-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x64 .f32) (main_arg6 : FVec F S64 .f32) (main_arg7 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  main_v33

def fn {F : FTy → Type} [FloatOps F] (main_arg0 : FVec F S100000x64 .f32) (main_arg1 : IVec S2x1250000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S100000 : Shape := ⟨1, ![100000]⟩
abbrev S1250000x1 : Shape := ⟨2, ![1250000, 1]⟩
abbrev S100000x1 : Shape := ⟨2, ![100000, 1]⟩
abbrev S1250000x64 : Shape := ⟨2, ![1250000, 64]⟩
abbrev S1x64 : Shape := ⟨2, ![1, 64]⟩
abbrev S64x128 : Shape := ⟨2, ![64, 128]⟩
abbrev S128x64 : Shape := ⟨2, ![128, 64]⟩
abbrev S5000x64 : Shape := ⟨2, ![5000, 64]⟩
abbrev S5000x1 : Shape := ⟨2, ![5000, 1]⟩
abbrev S5000x128 : Shape := ⟨2, ![5000, 128]⟩

abbrev nBuf : Space → Nat
  | .hbm => 62
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x1250000, .i32⟩
  | .hbm, ⟨9, _⟩ => ⟨S1250000, .i32⟩
  | .hbm, ⟨10, _⟩ => ⟨S1x1250000, .i32⟩
  | .hbm, ⟨11, _⟩ => ⟨S1250000, .i32⟩
  | .hbm, ⟨12, _⟩ => ⟨S_, .i32⟩
  | .hbm, ⟨13, _⟩ => ⟨S1250000, .i32⟩
  | .hbm, ⟨14, _⟩ => ⟨S_, .i32⟩
  | .hbm, ⟨15, _⟩ => ⟨S100000, .i32⟩
  | .hbm, ⟨16, _⟩ => ⟨S1250000x1, .i32⟩
  | .hbm, ⟨17, _⟩ => ⟨S100000, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S_, .i32⟩
  | .hbm, ⟨27, _⟩ => ⟨S1250000, .i32⟩
  | .hbm, ⟨28, _⟩ => ⟨S1250000, .i1⟩
  | .hbm, ⟨29, _⟩ => ⟨S_, .i32⟩
  | .hbm, ⟨30, _⟩ => ⟨S1250000, .i32⟩
  | .hbm, ⟨31, _⟩ => ⟨S1250000, .i32⟩
  | .hbm, ⟨32, _⟩ => ⟨S1250000, .i32⟩
  | .hbm, ⟨33, _⟩ => ⟨S1250000x1, .i32⟩
  | .hbm, ⟨34, _⟩ => ⟨S1250000x64, .f32⟩
  | .hbm, ⟨35, _⟩ => ⟨S_, .f32⟩
  | .hbm, ⟨36, _⟩ => ⟨S100000x64, .f32⟩
  | .hbm, ⟨37, _⟩ => ⟨S1250000x1, .i32⟩
  | .hbm, ⟨38, _⟩ => ⟨S100000x64, .f32⟩
  | .hbm, ⟨39, _⟩ => ⟨S1x64, .f32⟩
  | .hbm, ⟨40, _⟩ => ⟨S64x128, .f32⟩
  | .hbm, ⟨41, _⟩ => ⟨S128x64, .f32⟩
  | .hbm, ⟨42, _⟩ => ⟨S128x64, .bf16⟩
  | .hbm, ⟨43, _⟩ => ⟨S100000x64, .f32⟩
  | .hbm, ⟨44, _⟩ => ⟨S_, .i32⟩
  | .hbm, ⟨45, _⟩ => ⟨S1250000, .i32⟩
  | .hbm, ⟨46, _⟩ => ⟨S1250000, .i1⟩
  | .hbm, ⟨47, _⟩ => ⟨S_, .i32⟩
  | .hbm, ⟨48, _⟩ => ⟨S1250000, .i32⟩
  | .hbm, ⟨49, _⟩ => ⟨S1250000, .i32⟩
  | .hbm, ⟨50, _⟩ => ⟨S1250000, .i32⟩
  | .hbm, ⟨51, _⟩ => ⟨S1250000x1, .i32⟩
  | .hbm, ⟨52, _⟩ => ⟨S1250000x64, .f32⟩
  | .hbm, ⟨53, _⟩ => ⟨S_, .f32⟩
  | .hbm, ⟨54, _⟩ => ⟨S100000x64, .f32⟩
  | .hbm, ⟨55, _⟩ => ⟨S1250000x1, .i32⟩
  | .hbm, ⟨56, _⟩ => ⟨S100000x64, .f32⟩
  | .hbm, ⟨57, _⟩ => ⟨S1x64, .f32⟩
  | .hbm, ⟨58, _⟩ => ⟨S64x128, .f32⟩
  | .hbm, ⟨59, _⟩ => ⟨S128x64, .f32⟩
  | .hbm, ⟨60, _⟩ => ⟨S128x64, .bf16⟩
  | .hbm, ⟨61, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S128x64, .bf16⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x1, .f32⟩
  | .local _ .vmem, ⟨15, _⟩ => ⟨S5000x1, .f32⟩
  | .local _ .vmem, ⟨16, _⟩ => ⟨S128x64, .bf16⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  shapeCasts_S64_S1x64 : S64.ShapeCasts S1x64
  concatenates_S64x64_S64x64_S64x128_d1 : Shape.Concatenates [S64x64, S64x64] S64x128 1
  transposes_S64x128_S128x64_1_0 : S64x128.Transposes [1, 0] S128x64
  bitsLt_bf16_f32 : FTy.bits .bf16 < FTy.bits .f32
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  concatenates_S5000x64_S5000x64_S5000x128_d1 : Shape.Concatenates [S5000x64, S5000x64] S5000x128 1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1250000x1_S1250000_n_0_0_1_wf : ScatterDims.WF S100000 S1250000x1 S1250000 [] [0] [0] 1
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .bf16 = 32 ∨ (Rect.block (s := S128x64) S128x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .bf16 = 32 ∨ (Rect.block (s := S128x64) S128x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v23) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 81
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x1250000, .i32⟩
  | .hbm, ⟨9, _⟩ => ⟨S1250000, .i32⟩
  | .hbm, ⟨10, _⟩ => ⟨S1x1250000, .i32⟩
  | .hbm, ⟨11, _⟩ => ⟨S1250000, .i32⟩
  | .hbm, ⟨12, _⟩ => ⟨S_, .i32⟩
  | .hbm, ⟨13, _⟩ => ⟨S1250000, .i32⟩
  | .hbm, ⟨14, _⟩ => ⟨S1250000, .i1⟩
  | .hbm, ⟨15, _⟩ => ⟨S_, .i32⟩
  | .hbm, ⟨16, _⟩ => ⟨S1250000, .i32⟩
  | .hbm, ⟨17, _⟩ => ⟨S1250000, .i32⟩
  | .hbm, ⟨18, _⟩ => ⟨S1250000, .i32⟩
  | .hbm, ⟨19, _⟩ => ⟨S1250000x1, .i32⟩
  | .hbm, ⟨20, _⟩ => ⟨S1250000x64, .f32⟩
  | .hbm, ⟨21, _⟩ => ⟨S_, .f32⟩
  | .hbm, ⟨22, _⟩ => ⟨S100000x64, .f32⟩
  | .hbm, ⟨23, _⟩ => ⟨S1250000x1, .i32⟩
  | .hbm, ⟨24, _⟩ => ⟨S100000x64, .f32⟩
  | .hbm, ⟨25, _⟩ => ⟨S_, .f32⟩
  | .hbm, ⟨26, _⟩ => ⟨S1250000, .f32⟩
  | .hbm, ⟨27, _⟩ => ⟨S_, .f32⟩
  | .hbm, ⟨28, _⟩ => ⟨S100000, .f32⟩
  | .hbm, ⟨29, _⟩ => ⟨S1250000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S64x64, .f32⟩
  | .hbm, ⟨38, _⟩ => ⟨S100000x64, .f32⟩
  | .hbm, ⟨39, _⟩ => ⟨S1x64, .f32⟩
  | .hbm, ⟨40, _⟩ => ⟨S100000x64, .f32⟩
  | .hbm, ⟨41, _⟩ => ⟨S100000x64, .f32⟩
  | .hbm, ⟨42, _⟩ => ⟨S64x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .f32⟩
  | .hbm, ⟨48, _⟩ => ⟨S_, .i32⟩
  | .hbm, ⟨49, _⟩ => ⟨S1250000, .i32⟩
  | .hbm, ⟨50, _⟩ => ⟨S1250000, .i1⟩
  | .hbm, ⟨51, _⟩ => ⟨S_, .i32⟩
  | .hbm, ⟨52, _⟩ => ⟨S1250000, .i32⟩
  | .hbm, ⟨53, _⟩ => ⟨S1250000, .i32⟩
  | .hbm, ⟨54, _⟩ => ⟨S1250000, .i32⟩
  | .hbm, ⟨55, _⟩ => ⟨S1250000x1, .i32⟩
  | .hbm, ⟨56, _⟩ => ⟨S1250000x64, .f32⟩
  | .hbm, ⟨57, _⟩ => ⟨S_, .f32⟩
  | .hbm, ⟨58, _⟩ => ⟨S100000x64, .f32⟩
  | .hbm, ⟨59, _⟩ => ⟨S1250000x1, .i32⟩
  | .hbm, ⟨60, _⟩ => ⟨S100000x64, .f32⟩
  | .hbm, ⟨61, _⟩ => ⟨S_, .f32⟩
  | .hbm, ⟨62, _⟩ => ⟨S1250000, .f32⟩
  | .hbm, ⟨63, _⟩ => ⟨S_, .f32⟩
  | .hbm, ⟨64, _⟩ => ⟨S100000, .f32⟩
  | .hbm, ⟨65, _⟩ => ⟨S1250000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x64, .f32⟩
  | .hbm, ⟨72, _⟩ => ⟨S100000x64, .f32⟩
  | .hbm, ⟨73, _⟩ => ⟨S64x64, .f32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | .hbm, ⟨78, _⟩ => ⟨S64x64, .f32⟩
  | .hbm, ⟨79, _⟩ => ⟨S100000x64, .f32⟩
  | .hbm, ⟨80, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  dot_S100000x64_S64x64_S100000x64_1_0_0_1_n_n_wf : DotDims.WF S100000x64 S64x64 S100000x64 [1] [0] [0] [1] [] []

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Dense.lean ====
/-
  One mean-aggregation graph layer at a node and an output feature, in two arrangements, and the law that joins them.

  The plain arrangement: the node's aggregated neighbour features, each divided by the node's clamped in-degree, contracted
  with the neighbour weights, plus the bias, plus the node's own features contracted with the root weights.

  The fused arrangement: the aggregated features scaled by the reciprocal of the clamped in-degree and the node's own
  features laid side by side as one row of 128 entries, contracted with the two weight matrices stacked as one
  128-row matrix, plus the bias.

  They agree on the extended reals whenever the clamped in-degree is a nonzero real: dividing by a nonzero real is
  multiplying by its reciprocal (at the infinities too), a sum over 128 entries is the sum over the first 64 plus the
  sum over the last 64, and addition is commutative and associative.  No finiteness of the features is needed.
-/
import Idealize.ShloMosaic.PureOps.Ideal
import Idealize.ShloMosaic.PureOps.Ideal.Laws
import Idealize.ShloMosaic.Lib.ValueIdx

noncomputable section

open scoped BigOperators

namespace Cert.Dense

open Idealize.ShloMosaic Idealize.ShloMosaic.ValueIdx

/-- Entry `k` of the first half of a row of 128. -/
def lo (k : Fin 64) : Fin 128 := ⟨k.val, by omega⟩
/-- Entry `k` of the second half of a row of 128. -/
def hi (k : Fin 64) : Fin 128 := ⟨64 + k.val, by omega⟩

/-- A sum over a row of 128 entries is the sum over its first half plus the sum over its second half. -/
theorem sum_halves {M : Type*} [AddCommMonoid M] (f : Fin 128 → M) :
    ∑ k : Fin 128, f k = ∑ k : Fin 64, f (lo k) + ∑ k : Fin 64, f (hi k) := by
  have h := Fin.sum_univ_add (M := M) (a := 64) (b := 64) (fun k : Fin (64 + 64) => f k)
  refine h.trans ?_
  rfl

/-- A function of a row and a feature, as a function of the index of an `[n, 64]` array. -/
def onRows {n : ℕ} (g : Fin n → Fin 64 → EReal) : (⟨2, ![n, 64]⟩ : Shape).Idx → EReal := fun i => g (i 0) (i 1)

theorem onRows_ix2 {n : ℕ} (g : Fin n → Fin 64 → EReal) (r : Fin n) (j : Fin 64) : onRows g (ix2 r j) = g r j := rfl

/-- The plain arrangement of one layer at node `r`, output feature `j`: `A` the aggregated neighbour features, `X` the
    node features, `M` the clamped in-degrees, `Wl` / `Wr` the neighbour and root weights (output feature first), `b` the bias. -/
def sageAt {n : ℕ} (A X : (⟨2, ![n, 64]⟩ : Shape).Idx → EReal) (M : (⟨1, ![n]⟩ : Shape).Idx → EReal)
    (Wl Wr : (⟨2, ![64, 64]⟩ : Shape).Idx → EReal) (b : (⟨1, ![64]⟩ : Shape).Idx → EReal) (r : Fin n) (j : Fin 64) : EReal :=
  ((∑ k : Fin 64, Ideal.div (A (ix2 r k)) (M (ix1 r)) * Wl (ix2 j k)) + b (ix1 j)) + ∑ k : Fin 64, X (ix2 r k) * Wr (ix2 j k)

/-- The fused arrangement at row `r`, output feature `j`: `inv` the column of reciprocal clamped in-degrees, `W` the stacked
    weights (contracted coordinate first), `b` the bias as a row. -/
def fusedAt {n : ℕ} (A X : (⟨2, ![n, 64]⟩ : Shape).Idx → EReal) (inv : (⟨2, ![n, 1]⟩ : Shape).Idx → EReal)
    (W : (⟨2, ![128, 64]⟩ : Shape).Idx → EReal) (b : (⟨2, ![1, 64]⟩ : Shape).Idx → EReal) (r : Fin n) (j : Fin 64) : EReal :=
  ((∑ k : Fin 64, (A (ix2 r k) * inv (ix2 r (0 : Fin 1))) * W (ix2 (lo k) j))
      + ∑ k : Fin 64, X (ix2 r k) * W (ix2 (hi k) j)) + b (ix2 (0 : Fin 1) j)

/-- The two arrangements agree where the clamped in-degree is a nonzero real `q`, the reciprocal column holds `1 / q`,
    the stacked matrix holds the two weight matrices transposed, and the bias row holds the bias. -/
theorem fusedAt_eq_sageAt {n : ℕ} (A X : (⟨2, ![n, 64]⟩ : Shape).Idx → EReal) (inv : (⟨2, ![n, 1]⟩ : Shape).Idx → EReal)
    (W : (⟨2, ![128, 64]⟩ : Shape).Idx → EReal) (b2 : (⟨2, ![1, 64]⟩ : Shape).Idx → EReal)
    (M : (⟨1, ![n]⟩ : Shape).Idx → EReal) (Wl Wr : (⟨2, ![64, 64]⟩ : Shape).Idx → EReal) (b : (⟨1, ![64]⟩ : Shape).Idx → EReal)
    (r : Fin n) (j : Fin 64) (q : ℝ) (hq : q ≠ 0) (hM : M (ix1 r) = (q : EReal))
    (hinv : inv (ix2 r (0 : Fin 1)) = Ideal.div 1 (M (ix1 r)))
    (hWl : ∀ k : Fin 64, W (ix2 (lo k) j) = Wl (ix2 j k)) (hWr : ∀ k : Fin 64, W (ix2 (hi k) j) = Wr (ix2 j k))
    (hb : b2 (ix2 (0 : Fin 1) j) = b (ix1 j)) :
    fusedAt A X inv W b2 r j = sageAt A X M Wl Wr b r j := by
  unfold fusedAt sageAt
  rw [hinv, hM, hb, Ideal.div_coe hq, one_mul]
  have e1 : ∀ k : Fin 64, (A (ix2 r k) * ((1 / q : ℝ) : EReal)) * W (ix2 (lo k) j)
      = Ideal.div (A (ix2 r k)) (q : EReal) * Wl (ix2 j k) := fun k => by rw [hWl k, Ideal.div_coe hq]
  have e2 : ∀ k : Fin 64, X (ix2 r k) * W (ix2 (hi k) j) = X (ix2 r k) * Wr (ix2 j k) := fun k => by rw [hWr k]
  rw [Finset.sum_congr rfl fun k _ => e1 k, Finset.sum_congr rfl fun k _ => e2 k]
  exact add_right_comm _ _ _

end Cert.Dense

end
-- ==== Proof.Halves.lean ====
/-
  Two `[a, 64]` arrays laid side by side along axis 1 as one `[a, 128]` array, read at an index: an entry in the first
  half of a row is the first array's, an entry in the second half is the second array's, at the same row.
-/
import proofs.«148957_j6897717477582_2_alg».proof.Proof.Dense
import Idealize.ShloMosaic.Lib.Pipeline.Value

noncomputable section

namespace Cert.Dense

open Idealize.ShloMosaic Idealize.ShloMosaic.ValueIdx

variable {α : Type} {a : ℕ}

/-- The first half of row `p` of the two arrays side by side is row `p` of the first. -/
theorem concat_lo (u v : (⟨2, ![a, 64]⟩ : Shape).Idx → α)
    (h : Shape.Concatenates [(⟨2, ![a, 64]⟩ : Shape), (⟨2, ![a, 64]⟩ : Shape)] (⟨2, ![a, 128]⟩ : Shape) 1) (p : Fin a) (k : Fin 64) :
    concatenate (⟨2, ![a, 128]⟩ : Shape) 1 [⟨(⟨2, ![a, 64]⟩ : Shape), u⟩, ⟨(⟨2, ![a, 64]⟩ : Shape), v⟩] h (ix2 p (lo k)) = u (ix2 p k) :=
  concatenate_pair_apply_left 1 u v h (ix2 p (lo k)) rfl (ix2 p k) fun b =>
    match b with
    | ⟨0, _⟩ => rfl
    | ⟨1, _⟩ => rfl

/-- The second half of row `p` of the two arrays side by side is row `p` of the second. -/
theorem concat_hi (u v : (⟨2, ![a, 64]⟩ : Shape).Idx → α)
    (h : Shape.Concatenates [(⟨2, ![a, 64]⟩ : Shape), (⟨2, ![a, 64]⟩ : Shape)] (⟨2, ![a, 128]⟩ : Shape) 1) (p : Fin a) (k : Fin 64) :
    concatenate (⟨2, ![a, 128]⟩ : Shape) 1 [⟨(⟨2, ![a, 64]⟩ : Shape), u⟩, ⟨(⟨2, ![a, 64]⟩ : Shape), v⟩] h (ix2 p (hi k)) = v (ix2 p k) :=
  concatenate_pair_apply_right 1 u v h (ix2 p (hi k)) rfl rfl (ix2 p k)
    (fun b hb =>
      match b, hb with
      | ⟨0, _⟩, _ => rfl
      | ⟨1, _⟩, hb => absurd rfl hb)
    (by show k.val + 64 = 64 + k.val; omega)

end Cert.Dense

end
-- ==== Proof.LibMat.lean ====
/-
  A matrix product read at an index. For the plain dimension numbers (rows × contraction times contraction × columns)
  a `tpu.matmul` into the zero accumulator, at the ideal values, is at (a, b) the sum over the contracted coordinate `c`
  of the left operand at (a, c) times the right operand at (c, b): the contraction's index set has one axis, and the sum
  over it is re-indexed by that axis's coordinate.
-/
import Idealize.ShloMosaic.PureOps.Ideal.Laws
import Idealize.ShloMosaic.Lib.ValueIdx
import Idealize.ShloMosaic.Lib.ValueLayout

noncomputable section

open scoped BigOperators

namespace Cert.LibMat

open Idealize.ShloMosaic Idealize.ShloMosaic.ValueIdx

/-- The plain dimension numbers over any witness of their well-formedness. -/
abbrev plainDims {m k n : ℕ} (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- A plain matrix product into the zero accumulator, at (a, b): the sum over the contracted coordinate. -/
theorem matmul_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (plainDims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (plainDims w) k rfl rfl).symm]
  refine Finset.sum_congr rfl fun c _ => ?_
  have c2 := contrEquiv1_symm_val (plainDims w) k rfl rfl c
  have l2 : (plainDims w).lhsIdx (ix2 a b) ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (plainDims w).rhsIdx (ix2 a b) ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMat

end
-- ==== Proof.LibRows.lean ====
/-
  Rows and columns of a rank-2 array, read at an index.

  For an `[a, b]` array: a reduction along axis 1 at row `r` ranges over the entries `(r, c)`, a
  reduction along axis 0 at column `c` over the entries `(r, c)`; a vector of `a` entries cast to
  the column shape `[a, 1]` reads entry `r` at `(r, 0)`, and that column broadcast to `[a, b]`
  reads it at every `(r, c)`.  The sums are plain `Finset` sums and the maxima folds of `max` from
  the accumulator's value, for the vector unit's reductions and for the host's `reduce` alike.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

open scoped BigOperators

namespace Cert.LibRows

open Idealize.ShloMosaic Idealize.ShloMosaic.ValueIdx

variable {a b : ℕ}

/-- Row `r` with lane `k` put back at axis 1 is `(r, k)`. -/
theorem lift_axis1 (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Column `c` with row `k` put back at axis 0 is `(k, c)`. -/
theorem lift_axis0 (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- A lane sum of an `[a, b]` vector, at row `r`: the sum of the row's entries. -/
theorem laneSum_apply {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ src acc h hφ hacc (ix1 r) = ∑ c : Fin b, src (ix2 r c) := by
  rw [Ideal.multiReduction_add_single]
  exact Finset.sum_congr rfl fun k _ => congrArg src (lift_axis1 h r k)

/-- A lane maximum of an `[a, b]` vector, at row `r`: the fold of `max` over the row from the accumulator. -/
theorem laneMax_apply {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun c => src (ix2 r c)) := by
  rw [Ideal.multiReduction_maximumf_single]
  have hf : (src ∘ h.lift (ix1 r)) = fun c : Fin b => src (ix2 r c) :=
    funext fun k => congrArg src (lift_axis1 h r k)
  exact congrArg (fun f => Finset.fold max (Ideal.ofBits φ acc) f (Finset.univ : Finset (Fin b))) hf

/-- A sum over the rows of an `[a, b]` vector, at column `c`. -/
theorem rowSum_apply {φ : FTy} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (c : Fin b) :
    multiReduction .add [0] ⟨1, ![b]⟩ src acc h hφ hacc (ix1 c) = ∑ r : Fin a, src (ix2 r c) := by
  rw [Ideal.multiReduction_add_single]
  exact Finset.sum_congr rfl fun k _ => congrArg src (lift_axis0 h c k)

/-- The host's `reduce` with a maximum body along axis 1 of an f32 `[a, b]` array, at row `r`: the same fold,
    from the initial value's one entry. -/
theorem hostLaneMax_apply {u : Shape} (x : (⟨2, ![a, b]⟩ : Shape).Idx → Ideal .f32) (init : u.Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < u.numel) (r : Fin a) :
    Host.reduce FloatOps.maximumf x init h' hu (ix1 r)
      = (Finset.univ : Finset (Fin b)).fold max (init (Shape.Idx.first hu)) (fun c => x (ix2 r c)) := by
  rw [Host.reduce_eq_fold_single FloatOps.maximumf x init h' h hu]
  have hf : (x ∘ h.lift (ix1 r)) = fun c : Fin b => x (ix2 r c) :=
    funext fun k => congrArg x (lift_axis1 h r k)
  exact congrArg (fun f => Finset.fold max (init (Shape.Idx.first hu)) f (Finset.univ : Finset (Fin b))) hf

/-- An `[a]` vector cast to the column shape `[a, 1]` reads, at `(r, u)`, entry `r`. -/
theorem shapeCast_a_a1_apply {α : Type} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An `[a, 1]` column broadcast to `[a, b]` reads, at `(r, c)`, the column's entry of row `r`. -/
theorem broadcastTo_a1_ab_apply {α : Type} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Cert.LibRows

end
-- ==== Proof.KPayload.lean ====
/-
  What one grid point of each dense-combine kernel stores, at row `p` and output feature `q` of its block, at the ideal
  values: the fused arrangement of one layer (`Cert.Dense.fusedAt`) of the point's five loaded blocks — the aggregated
  rows scaled by the reciprocal column and the node rows, side by side, contracted over 128 entries with the stacked
  weights, plus the bias row — clamped below at zero in the first kernel, as it is in the second.
-/
import proofs.«148957_j6897717477582_2_alg».proof.Proof.Gen.KernelIdeal.Skeleton
import proofs.«148957_j6897717477582_2_alg».proof.Proof.Halves
import proofs.«148957_j6897717477582_2_alg».proof.Proof.LibMat
import proofs.«148957_j6897717477582_2_alg».proof.Proof.LibRows
import Idealize.ShloMosaic.Lib.ValueLayout

noncomputable section

open scoped BigOperators

namespace Cert.KernelIdeal.Hand

open Cert.KernelIdeal Cert.KernelIdeal.Gen Idealize.ShloMosaic Idealize.ShloMosaic.ValueIdx

/-- The contraction both kernels compute, with its bias row added, at `(p, q)` of the block: the fused arrangement. -/
theorem fused_apply (x0 x1 : Vec Ideal S5000x64 .f32) (x2 : Vec Ideal S5000x1 .f32)
    (x3 : Vec Ideal S128x64 .bf16) (x4 : Vec Ideal S1x64 .f32)
    (h0 : S5000x64.ShapeCasts S5000x64) (h2 : S5000x1.ShapeCasts S5000x1) (hb : S5000x1.Broadcasts S5000x64)
    (ht : FTy.bits .bf16 < FTy.bits .f32) (hc : Shape.Concatenates [S5000x64, S5000x64] S5000x128 1)
    (h3 : S128x64.ShapeCasts S128x64) (h4 : S1x64.ShapeCasts S1x64) (hb4 : S1x64.Broadcasts S5000x64)
    (y1 : FVec Ideal S5000x64 .f32) (hy1 : y1 = x1) (p : Fin 5000) (q : Fin 64) :
    addf (matmul dot_S5000x128_S128x64_S5000x64_1_0_0_1_n_n none
        (concatenate S5000x128 1 [⟨S5000x64, truncf .bf16 (mulf (shapeCast S5000x64 x0 h0) (broadcastTo S5000x64 (shapeCast S5000x1 x2 h2) hb)) ht⟩,
          ⟨S5000x64, truncf .bf16 y1 ht⟩] hc)
        (shapeCast S128x64 x3 h3 : FVec Ideal S128x64 .bf16) (constant S5000x64 .f32 0x00000000#32))
      (broadcastTo S5000x64 (shapeCast S1x64 x4 h4) hb4) (ix2 p q)
      = Cert.Dense.fusedAt x0 x1 x2 x3 x4 p q := by
  subst hy1
  rw [addf_apply]
  unfold Cert.Dense.fusedAt
  refine congrArg₂ (· + ·) ?_ ?_
  · refine (Cert.LibMat.matmul_plain_apply _ none _ _ p q).trans ?_
    rw [Cert.Dense.sum_halves]
    refine congrArg₂ (· + ·) (Finset.sum_congr rfl fun k _ => ?_) (Finset.sum_congr rfl fun k _ => ?_)
    · rw [Cert.Dense.concat_lo, shapeCast_self, truncf_apply, mulf_apply, shapeCast_self,
        Cert.LibRows.broadcastTo_a1_ab_apply, shapeCast_self]
    · rw [Cert.Dense.concat_hi, shapeCast_self, truncf_apply]
  · rw [broadcastTo_1b_ab_apply, shapeCast_self]

/-- The first kernel's stored value at `(p, q)`: the fused arrangement, clamped below at zero. -/
theorem pay0_apply (x0 : Vec Ideal S5000x64 .f32) (x2 : Vec Ideal S5000x1 .f32) (x1 : Vec Ideal S5000x64 .f32)
    (x3 : Vec Ideal S128x64 .bf16) (x4 : Vec Ideal S1x64 .f32) (p : Fin 5000) (q : Fin 64) :
    k0_pay1 (F := Ideal) x0 x2 x1 x3 x4 (ix2 p q)
      = max (Cert.Dense.fusedAt x0 x1 x2 x3 x4 p q) (Ideal.ofBits .f32 0x00000000#32) := by
  unfold k0_pay1
  rw [maximumf_apply, broadcast_apply]
  exact congrArg₂ max (fused_apply x0 x1 x2 x3 x4 _ _ _ _ _ _ _ _ _ rfl p q) rfl

/-- The second kernel's stored value at `(p, q)`: the fused arrangement. -/
theorem pay1_apply (x0 : Vec Ideal S5000x64 .f32) (x2 : Vec Ideal S5000x1 .f32) (x1 : Vec Ideal S5000x64 .f32)
    (x3 : Vec Ideal S128x64 .bf16) (x4 : Vec Ideal S1x64 .f32) (p : Fin 5000) (q : Fin 64) :
    k1_pay1 (F := Ideal) x0 x2 x1 x3 x4 (ix2 p q) = Cert.Dense.fusedAt x0 x1 x2 x3 x4 p q := by
  unfold k1_pay1
  exact fused_apply x0 x1 x2 x3 x4 _ _ _ _ _ _ _ _ _ (shapeCast_self _ _) p q

end Cert.KernelIdeal.Hand

end
-- ==== Proof.KRegion0.lean ====
/-
  Launch 0 of the dense-combine kernel, from the contents `V` of the buffers when it is entered: the array it writes
  ends holding, at node `r` and output feature `j`, the fused arrangement of one layer (`Cert.Dense.fusedAt`) of the five
  arrays it reads, clamped below at zero.  Grid point `t` works on rows `5000 t … 5000 t + 4999`: its blocks of the
  aggregated features, of the node features, of the reciprocal column and of the result are those rows, its blocks
  of the stacked weights and of the bias row are the whole arrays; row `p` of what it stores depends on row `p` of its
  blocks only, so what it writes back is the rows of one function of the whole arrays, and the twenty points' rows
  cover the result.
-/
import proofs.«148957_j6897717477582_2_alg».proof.Proof.Gen.KernelIdeal.Frame
import proofs.«148957_j6897717477582_2_alg».proof.Proof.KPayload
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The layer's result array as one function of the five arrays the launch reads. -/
def G0 (A X : S100000x64.Idx → EReal) (inv : S100000x1.Idx → EReal) (W : S128x64.Idx → EReal) (b : S1x64.Idx → EReal) :
    S100000x64.Idx → EReal :=
  Cert.Dense.onRows fun r j => max (Cert.Dense.fusedAt A X inv W b r j) (Ideal.ofBits .f32 0x00000000#32)

/-- Where each window's block sits at grid point `t`: block `t` along the rows for the four row-blocked arrays, the one
    block of the weights and of the bias. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- One stored entry, from blocks that are rows `5000 tv + p` of the whole arrays: the layer's function at that row. -/
theorem block0_apply (A X : S100000x64.Idx → EReal) (inv : S100000x1.Idx → EReal) (W : S128x64.Idx → EReal) (b : S1x64.Idx → EReal)
    (x0 x1 : Vec Ideal S5000x64 .f32) (x2 : Vec Ideal S5000x1 .f32) (x3 : Vec Ideal S128x64 .bf16) (x4 : Vec Ideal S1x64 .f32)
    (tv : ℕ)
    (e0 : ∀ (p : Fin 5000) (k : Fin 64) (r : Fin 100000), r.val = tv * 5000 + p.val → x0 (ix2 p k) = A (ix2 r k))
    (e1 : ∀ (p : Fin 5000) (k : Fin 64) (r : Fin 100000), r.val = tv * 5000 + p.val → x1 (ix2 p k) = X (ix2 r k))
    (e2 : ∀ (p : Fin 5000) (r : Fin 100000), r.val = tv * 5000 + p.val → x2 (ix2 p (0 : Fin 1)) = inv (ix2 r (0 : Fin 1)))
    (e3 : ∀ (k : Fin 128) (j : Fin 64), x3 (ix2 k j) = W (ix2 k j))
    (e4 : ∀ j : Fin 64, x4 (ix2 (0 : Fin 1) j) = b (ix2 (0 : Fin 1) j))
    (y : S5000x64.Idx) (i : S100000x64.Idx) (h0 : (i 0).val = tv * 5000 + (y 0).val) (h1 : (i 1).val = (y 1).val) :
    k0_pay1 (F := Ideal) x0 x2 x1 x3 x4 y = G0 A X inv W b i := by
  obtain ⟨p, q, rfl⟩ : ∃ (p : Fin 5000) (q : Fin 64), y = ix2 p q := ⟨y 0, y 1, eq_ix2 y⟩
  obtain ⟨r, j, rfl⟩ : ∃ (r : Fin 100000) (j : Fin 64), i = ix2 r j := ⟨i 0, i 1, eq_ix2 i⟩
  have hr : r.val = tv * 5000 + p.val := h0
  obtain rfl : j = q := Fin.ext h1
  rw [pay0_apply]
  unfold G0
  rw [Cert.Dense.onRows_ix2]
  refine congrArg₂ max ?_ rfl
  unfold Cert.Dense.fusedAt
  rw [e2 p r hr, e4 j]
  refine congrArg₂ (· + ·) (congrArg₂ (· + ·) (Finset.sum_congr rfl fun k _ => ?_) (Finset.sum_congr rfl fun k _ => ?_)) rfl
  · rw [e0 p k r hr, e3]
  · rw [e1 p k r hr, e3]

/-- WHAT POINT `t` WRITES BACK is block `t` of the layer's function of the arrays as the launch finds them. -/
theorem flushed0_eq (c : Dev nD) (t : Fin cfg0.N) :
    (dat0 V c).flushed 5 t = ((cfg0.win 5).blk t).view.read (Elt Ideal)
      (G0 (V c main_v23) (V c main_arg0) (V c main_v13) (V c main_v27) (V c main_v24)) := by
  show (cfg0.win 5).cut (grid0.coords t) ((dat0 V c).after 5 t) = _
  rw [after0_5]
  unfold out0_5
  rw [View.canon_unit_zero hz0]
  simp only [View.ld_unit_zero (S := S5000x64) hz0, View.ld_unit_zero (S := S5000x1) hz0,
    View.ld_unit_zero (S := S128x64) hz0, View.ld_unit_zero (S := S1x64) hz0]
  obtain ⟨i00, i01, i10, i11, i20, i21, i30, i31, i40, i41, i50, i51⟩ := idx0 t
  funext y
  refine block0_apply (V c main_v23) (V c main_arg0) (V c main_v13) (V c main_v27) (V c main_v24) _ _ _ _ _ t.val ?_ ?_ ?_ ?_ ?_ y _ ?_ ?_
  · intro p k r hr
    show V c main_v23 (((cfg0.win 0).blk t).view.emb (ix2 p k)) = V c main_v23 (ix2 r k)
    have he : ((cfg0.win 0).blk t).view.emb (ix2 p k) = ix2 r k := by
      funext a; apply Fin.ext
      match a with
      | ⟨0, _⟩ => show win0_0.index t (0 : Fin 2) * 5000 + 1 * p.val = r.val; omega
      | ⟨1, _⟩ => show win0_0.index t (1 : Fin 2) * 64 + 1 * k.val = k.val; omega
    rw [he]
  · intro p k r hr
    show V c main_arg0 (((cfg0.win 1).blk t).view.emb (ix2 p k)) = V c main_arg0 (ix2 r k)
    have he : ((cfg0.win 1).blk t).view.emb (ix2 p k) = ix2 r k := by
      funext a; apply Fin.ext
      match a with
      | ⟨0, _⟩ => show win0_1.index t (0 : Fin 2) * 5000 + 1 * p.val = r.val; omega
      | ⟨1, _⟩ => show win0_1.index t (1 : Fin 2) * 64 + 1 * k.val = k.val; omega
    rw [he]
  · intro p r hr
    show V c main_v13 (((cfg0.win 2).blk t).view.emb (ix2 p (0 : Fin 1))) = V c main_v13 (ix2 r (0 : Fin 1))
    have he : ((cfg0.win 2).blk t).view.emb (ix2 p (0 : Fin 1)) = ix2 r (0 : Fin 1) := by
      funext a; apply Fin.ext
      match a with
      | ⟨0, _⟩ => show win0_2.index t (0 : Fin 2) * 5000 + 1 * p.val = r.val; omega
      | ⟨1, _⟩ => show win0_2.index t (1 : Fin 2) * 1 + 1 * 0 = 0; omega
    rw [he]
  · intro k j
    show V c main_v27 (((cfg0.win 3).blk t).view.emb (ix2 k j)) = V c main_v27 (ix2 k j)
    have he : ((cfg0.win 3).blk t).view.emb (ix2 k j) = ix2 k j := by
      funext a; apply Fin.ext
      match a with
      | ⟨0, _⟩ => show win0_3.index t (0 : Fin 2) * 128 + 1 * k.val = k.val; omega
      | ⟨1, _⟩ => show win0_3.index t (1 : Fin 2) * 64 + 1 * j.val = j.val; omega
    rw [he]
  · intro j
    show V c main_v24 (((cfg0.win 4).blk t).view.emb (ix2 (0 : Fin 1) j)) = V c main_v24 (ix2 (0 : Fin 1) j)
    have he : ((cfg0.win 4).blk t).view.emb (ix2 (0 : Fin 1) j) = ix2 (0 : Fin 1) j := by
      funext a; apply Fin.ext
      match a with
      | ⟨0, _⟩ => show win0_4.index t (0 : Fin 2) * 1 + 1 * 0 = 0; omega
      | ⟨1, _⟩ => show win0_4.index t (1 : Fin 2) * 64 + 1 * j.val = j.val; omega
    rw [he]
  · show win0_5.index t (0 : Fin 2) * 5000 + 1 * (y 0).val = t.val * 5000 + (y 0).val; omega
  · show win0_5.index t (1 : Fin 2) * 64 + 1 * (y 1).val = (y 1).val; omega

/-- An index of the result array is in point `t`'s block iff each coordinate is in the block's range on its axis. -/
theorem mem_blk0 (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v28).slice (win0_5.rect t)).set ↔ _
  rw [View.set_slice_whole, Rect.mem_set_unit]
  exact Iff.rfl

/-- Row `r` of the result is in the block of point `r / 5000`. -/
theorem cover0 (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : grid0.N = 20 := N_0
  have ht : (i 0).val / 5000 < cfg0.N := by show (i 0).val / 5000 < grid0.N; rw [hN]; omega
  refine ⟨⟨(i 0).val / 5000, ht⟩, flush0_5 _, ?_⟩
  rw [mem_blk0]
  obtain ⟨i00, i01, i10, i11, i20, i21, i30, i31, i40, i41, i50, i51⟩ := idx0 ⟨(i 0).val / 5000, ht⟩
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [i50]
    show (i 0).val / 5000 * 5000 ≤ (i 0).val ∧ (i 0).val < (i 0).val / 5000 * 5000 + 5000
    omega
  | ⟨1, _⟩ =>
    show win0_5.index ⟨(i 0).val / 5000, ht⟩ (1 : Fin 2) * 64 ≤ (i 1).val ∧ (i 1).val < win0_5.index ⟨(i 0).val / 5000, ht⟩ (1 : Fin 2) * 64 + 64
    rw [i51]
    omega

/-- THE RESULT ARRAY after the launch: the layer's function of the arrays as the launch finds them. -/
theorem final0 (c : Dev nD) :
    (dat0 V c).arrAt 5 cfg0.N = G0 (V c main_v23) (V c main_arg0) (V c main_v13) (V c main_v27) (V c main_v24) :=
  (dat0 V c).arrAt_eq_of_cover 5 _ (fun t _ => flushed0_eq V c t) (cover0)

end Cert.KernelIdeal.Hand

end
-- ==== Proof.KRegion1.lean ====
/-
  Launch 1 of the dense-combine kernel, from the contents `V` of the buffers when it is entered: the array it writes
  ends holding, at node `r` and output feature `j`, the fused arrangement of one layer (`Cert.Dense.fusedAt`) of the five
  arrays it reads.  Grid point `t` works on rows `5000 t … 5000 t + 4999`: its blocks of the
  aggregated features, of the node features, of the reciprocal column and of the result are those rows, its blocks
  of the stacked weights and of the bias row are the whole arrays; row `p` of what it stores depends on row `p` of its
  blocks only, so what it writes back is the rows of one function of the whole arrays, and the twenty points' rows
  cover the result.
-/
import proofs.«148957_j6897717477582_2_alg».proof.Proof.Gen.KernelIdeal.Frame
import proofs.«148957_j6897717477582_2_alg».proof.Proof.KPayload
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The layer's result array as one function of the five arrays the launch reads. -/
def G1 (A X : S100000x64.Idx → EReal) (inv : S100000x1.Idx → EReal) (W : S128x64.Idx → EReal) (b : S1x64.Idx → EReal) :
    S100000x64.Idx → EReal :=
  Cert.Dense.onRows fun r j => Cert.Dense.fusedAt A X inv W b r j

/-- Where each window's block sits at grid point `t`: block `t` along the rows for the four row-blocked arrays, the one
    block of the weights and of the bias. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- One stored entry, from blocks that are rows `5000 tv + p` of the whole arrays: the layer's function at that row. -/
theorem block1_apply (A X : S100000x64.Idx → EReal) (inv : S100000x1.Idx → EReal) (W : S128x64.Idx → EReal) (b : S1x64.Idx → EReal)
    (x0 x1 : Vec Ideal S5000x64 .f32) (x2 : Vec Ideal S5000x1 .f32) (x3 : Vec Ideal S128x64 .bf16) (x4 : Vec Ideal S1x64 .f32)
    (tv : ℕ)
    (e0 : ∀ (p : Fin 5000) (k : Fin 64) (r : Fin 100000), r.val = tv * 5000 + p.val → x0 (ix2 p k) = A (ix2 r k))
    (e1 : ∀ (p : Fin 5000) (k : Fin 64) (r : Fin 100000), r.val = tv * 5000 + p.val → x1 (ix2 p k) = X (ix2 r k))
    (e2 : ∀ (p : Fin 5000) (r : Fin 100000), r.val = tv * 5000 + p.val → x2 (ix2 p (0 : Fin 1)) = inv (ix2 r (0 : Fin 1)))
    (e3 : ∀ (k : Fin 128) (j : Fin 64), x3 (ix2 k j) = W (ix2 k j))
    (e4 : ∀ j : Fin 64, x4 (ix2 (0 : Fin 1) j) = b (ix2 (0 : Fin 1) j))
    (y : S5000x64.Idx) (i : S100000x64.Idx) (h0 : (i 0).val = tv * 5000 + (y 0).val) (h1 : (i 1).val = (y 1).val) :
    k1_pay1 (F := Ideal) x0 x2 x1 x3 x4 y = G1 A X inv W b i := by
  obtain ⟨p, q, rfl⟩ : ∃ (p : Fin 5000) (q : Fin 64), y = ix2 p q := ⟨y 0, y 1, eq_ix2 y⟩
  obtain ⟨r, j, rfl⟩ : ∃ (r : Fin 100000) (j : Fin 64), i = ix2 r j := ⟨i 0, i 1, eq_ix2 i⟩
  have hr : r.val = tv * 5000 + p.val := h0
  obtain rfl : j = q := Fin.ext h1
  rw [pay1_apply]
  unfold G1
  rw [Cert.Dense.onRows_ix2]
  unfold Cert.Dense.fusedAt
  rw [e2 p r hr, e4 j]
  refine congrArg₂ (· + ·) (congrArg₂ (· + ·) (Finset.sum_congr rfl fun k _ => ?_) (Finset.sum_congr rfl fun k _ => ?_)) rfl
  · rw [e0 p k r hr, e3]
  · rw [e1 p k r hr, e3]

/-- WHAT POINT `t` WRITES BACK is block `t` of the layer's function of the arrays as the launch finds them. -/
theorem flushed1_eq (c : Dev nD) (t : Fin cfg1.N) :
    (dat1 V c).flushed 5 t = ((cfg1.win 5).blk t).view.read (Elt Ideal)
      (G1 (V c main_v38) (V c main_v28) (V c main_v13) (V c main_v42) (V c main_v39)) := by
  show (cfg1.win 5).cut (grid1.coords t) ((dat1 V c).after 5 t) = _
  rw [after1_5]
  unfold out1_5
  rw [View.canon_unit_zero hz1]
  simp only [View.ld_unit_zero (S := S5000x64) hz1, View.ld_unit_zero (S := S5000x1) hz1,
    View.ld_unit_zero (S := S128x64) hz1, View.ld_unit_zero (S := S1x64) hz1]
  obtain ⟨i00, i01, i10, i11, i20, i21, i30, i31, i40, i41, i50, i51⟩ := idx1 t
  funext y
  refine block1_apply (V c main_v38) (V c main_v28) (V c main_v13) (V c main_v42) (V c main_v39) _ _ _ _ _ t.val ?_ ?_ ?_ ?_ ?_ y _ ?_ ?_
  · intro p k r hr
    show V c main_v38 (((cfg1.win 0).blk t).view.emb (ix2 p k)) = V c main_v38 (ix2 r k)
    have he : ((cfg1.win 0).blk t).view.emb (ix2 p k) = ix2 r k := by
      funext a; apply Fin.ext
      match a with
      | ⟨0, _⟩ => show win1_0.index t (0 : Fin 2) * 5000 + 1 * p.val = r.val; omega
      | ⟨1, _⟩ => show win1_0.index t (1 : Fin 2) * 64 + 1 * k.val = k.val; omega
    rw [he]
  · intro p k r hr
    show V c main_v28 (((cfg1.win 1).blk t).view.emb (ix2 p k)) = V c main_v28 (ix2 r k)
    have he : ((cfg1.win 1).blk t).view.emb (ix2 p k) = ix2 r k := by
      funext a; apply Fin.ext
      match a with
      | ⟨0, _⟩ => show win1_1.index t (0 : Fin 2) * 5000 + 1 * p.val = r.val; omega
      | ⟨1, _⟩ => show win1_1.index t (1 : Fin 2) * 64 + 1 * k.val = k.val; omega
    rw [he]
  · intro p r hr
    show V c main_v13 (((cfg1.win 2).blk t).view.emb (ix2 p (0 : Fin 1))) = V c main_v13 (ix2 r (0 : Fin 1))
    have he : ((cfg1.win 2).blk t).view.emb (ix2 p (0 : Fin 1)) = ix2 r (0 : Fin 1) := by
      funext a; apply Fin.ext
      match a with
      | ⟨0, _⟩ => show win1_2.index t (0 : Fin 2) * 5000 + 1 * p.val = r.val; omega
      | ⟨1, _⟩ => show win1_2.index t (1 : Fin 2) * 1 + 1 * 0 = 0; omega
    rw [he]
  · intro k j
    show V c main_v42 (((cfg1.win 3).blk t).view.emb (ix2 k j)) = V c main_v42 (ix2 k j)
    have he : ((cfg1.win 3).blk t).view.emb (ix2 k j) = ix2 k j := by
      funext a; apply Fin.ext
      match a with
      | ⟨0, _⟩ => show win1_3.index t (0 : Fin 2) * 128 + 1 * k.val = k.val; omega
      | ⟨1, _⟩ => show win1_3.index t (1 : Fin 2) * 64 + 1 * j.val = j.val; omega
    rw [he]
  · intro j
    show V c main_v39 (((cfg1.win 4).blk t).view.emb (ix2 (0 : Fin 1) j)) = V c main_v39 (ix2 (0 : Fin 1) j)
    have he : ((cfg1.win 4).blk t).view.emb (ix2 (0 : Fin 1) j) = ix2 (0 : Fin 1) j := by
      funext a; apply Fin.ext
      match a with
      | ⟨0, _⟩ => show win1_4.index t (0 : Fin 2) * 1 + 1 * 0 = 0; omega
      | ⟨1, _⟩ => show win1_4.index t (1 : Fin 2) * 64 + 1 * j.val = j.val; omega
    rw [he]
  · show win1_5.index t (0 : Fin 2) * 5000 + 1 * (y 0).val = t.val * 5000 + (y 0).val; omega
  · show win1_5.index t (1 : Fin 2) * 64 + 1 * (y 1).val = (y 1).val; omega

/-- An index of the result array is in point `t`'s block iff each coordinate is in the block's range on its axis. -/
theorem mem_blk1 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v43).slice (win1_5.rect t)).set ↔ _
  rw [View.set_slice_whole, Rect.mem_set_unit]
  exact Iff.rfl

/-- Row `r` of the result is in the block of point `r / 5000`. -/
theorem cover1 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : grid1.N = 20 := N_1
  have ht : (i 0).val / 5000 < cfg1.N := by show (i 0).val / 5000 < grid1.N; rw [hN]; omega
  refine ⟨⟨(i 0).val / 5000, ht⟩, flush1_5 _, ?_⟩
  rw [mem_blk1]
  obtain ⟨i00, i01, i10, i11, i20, i21, i30, i31, i40, i41, i50, i51⟩ := idx1 ⟨(i 0).val / 5000, ht⟩
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [i50]
    show (i 0).val / 5000 * 5000 ≤ (i 0).val ∧ (i 0).val < (i 0).val / 5000 * 5000 + 5000
    omega
  | ⟨1, _⟩ =>
    show win1_5.index ⟨(i 0).val / 5000, ht⟩ (1 : Fin 2) * 64 ≤ (i 1).val ∧ (i 1).val < win1_5.index ⟨(i 0).val / 5000, ht⟩ (1 : Fin 2) * 64 + 64
    rw [i51]
    omega

/-- THE RESULT ARRAY after the launch: the layer's function of the arrays as the launch finds them. -/
theorem final1 (c : Dev nD) :
    (dat1 V c).arrAt 5 cfg1.N = G1 (V c main_v38) (V c main_v28) (V c main_v13) (V c main_v42) (V c main_v39) :=
  (dat1 V c).arrAt_eq_of_cover 5 _ (fun t _ => flushed1_eq V c t) (cover1)

end Cert.KernelIdeal.Hand

end
-- ==== Proof.KRun.lean ====
/-
  The idealized kernel program's run with its result named.  Every weakly fair execution of the program — the host
  operations before the first kernel launch, the first launch, the host operations between the launches, the second
  launch — terminates without a fault, the arguments unchanged, and leaves in the result array what the second launch's
  write-backs leave there: the contents of that array at the last segment boundary.  The run is the generated chain of
  the four segments; only the reading of the final state is new (one more buffer read off the last boundary's contents).
-/
import proofs.«148957_j6897717477582_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last boundary's contents of its buffer, the arguments as launched. -/
theorem run_result : θ_run defs (onTc (τ := τ) (main (F := F))) ⟨m, fun _ => 0, ρ⟩ (fun r => ∀ c : Dev nD,
      r.2.mem ((c.tc : Thread nD τ).loc main_v43) = W4 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v43 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

/-- The last boundary's contents of the result buffer are what the second launch's write-backs leave in it. -/
theorem W4_result (c : Dev nD) : W4 m ρ c (Proc.devRef .tc main_v43) = (dat1 (V3 m ρ) c).arrAt 5 cfg1.N :=
  W4_arr m ρ c 5

end Cert.KernelIdeal.Hand

end
-- ==== Proof.KHost.lean ====
/-
  The host side of the idealized kernel program, and the program's result as one function of its arguments.

  Before the first launch the host computes, from the edge list `e` (row 0 the sources, row 1 the destinations): the
  destinations as a column of scatter indices, the sources (a negative one wrapped by the node count) as a column of
  gather indices, the aggregated features (the rows gathered at the sources, added up at the destinations), the
  in-degree of every node counted in 32-bit integers, its conversion clamped below at one, the reciprocal of that as a
  column, the two weight matrices side by side, transposed, and the bias as a row.  Between the launches it aggregates
  the first launch's result in the same way and lays out the second layer's weights and bias.  Each launch leaves in its
  result array the fused arrangement of one layer of the arrays it reads (the two launch files).  Composed: the
  program's result is the second layer of (the aggregation of the hidden features, the hidden features), the hidden
  features being the first layer, clamped below at zero, of (the aggregation of the node features, the node features).
-/
import proofs.«148957_j6897717477582_2_alg».proof.Proof.Gen.KernelIdeal.Frame
import proofs.«148957_j6897717477582_2_alg».proof.Proof.KRegion0
import proofs.«148957_j6897717477582_2_alg».proof.Proof.KRegion1
import proofs.«148957_j6897717477582_2_alg».proof.Proof.KRun
import Idealize.ShloMosaic.Lib.StableHlo.Run
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo Idealize.ShloMosaic.ValueIdx

/-! ## The host's values as functions of the arguments -/

/-- The destinations. -/
def dstVec (e : S2x1250000.Idx → BitVec 32) : S1250000.Idx → BitVec 32 :=
  shapeCast S1250000 (extractStridedSlice S1x1250000 ![1, 0] e slices_S2x1250000_S1x1250000_1_0) shapeCasts_S1x1250000_S1250000

/-- The destinations, as the scatters' column of indices. -/
def dstCol (e : S2x1250000.Idx → BitVec 32) : S1250000x1.Idx → BitVec 32 :=
  broadcastInDim S1250000x1 ![0] bcast_S1250000_S1250000x1_0 (dstVec e)

/-- The sources. -/
def srcVec (e : S2x1250000.Idx → BitVec 32) : S1250000.Idx → BitVec 32 :=
  shapeCast S1250000 (extractStridedSlice S1x1250000 ![0, 0] e slices_S2x1250000_S1x1250000_0_0) shapeCasts_S1x1250000_S1250000

/-- The sources, a negative one wrapped by the node count, as the gathers' column of indices. -/
def srcCol (e : S2x1250000.Idx → BitVec 32) : S1250000x1.Idx → BitVec 32 :=
  broadcastInDim S1250000x1 ![0] bcast_S1250000_S1250000x1_0
    (select (cmpi .slt (srcVec e) (broadcastInDim S1250000 ![] bcast_S_S1250000 (constantI S_ 32 0#32)))
      (addi (srcVec e) (broadcastInDim S1250000 ![] bcast_S_S1250000 (constantI S_ 32 100000#32))) (srcVec e))

/-- The aggregation of the rows of `x`: gathered at the sources, added up at the destinations. -/
def aggOf (x : S100000x64.Idx → EReal) (e : S2x1250000.Idx → BitVec 32) : S100000x64.Idx → EReal :=
  Host.scatterAdd (F := Ideal) (φ := .f32) scatter_S100000x64_S1250000x1_S1250000x64_1_0_0_1
    (broadcastInDim S100000x64 ![] bcast_S_S100000x64 (constant (F := Ideal) S_ .f32 0x00000000#32)) (dstCol e)
    (Host.gather gather_S100000x64_S1250000x1_S1250000x64_1_0_n_n_0_1_164 x (srcCol e))

/-- The in-degrees, counted in 32-bit integers. -/
def cntI (e : S2x1250000.Idx → BitVec 32) : S100000.Idx → BitVec 32 :=
  Host.scatter scatter_S100000_S1250000x1_S1250000_n_0_0_1 IntOp.addi
    (broadcastInDim S100000 ![] bcast_S_S100000 (constantI S_ 32 0#32)) (dstCol e)
    (broadcastInDim S1250000 ![] bcast_S_S1250000 (constantI S_ 32 1#32))

/-- The in-degrees converted, clamped below at one. -/
def clampK (e : S2x1250000.Idx → BitVec 32) : S100000.Idx → EReal :=
  maximumf (F := Ideal) (φ := .f32) (sitofp (F := Ideal) .f32 (cntI e))
    (broadcastInDim S100000 ![] bcast_S_S100000 (constant (F := Ideal) S_ .f32 0x3F800000#32))

/-- The reciprocals of the clamped in-degrees, as a column. -/
def invCol (e : S2x1250000.Idx → BitVec 32) : S100000x1.Idx → EReal :=
  broadcastInDim S100000x1 ![0] bcast_S100000_S100000x1_0
    (Host.divf (F := Ideal) (φ := .f32) (broadcastInDim S100000 ![] bcast_S_S100000 (constant (F := Ideal) S_ .f32 0x3F800000#32)) (clampK e))

/-- The neighbour and root weights side by side, transposed: the stacked weights, contracted coordinate first. -/
def wcat (Wl Wr : S64x64.Idx → EReal) : S128x64.Idx → EReal :=
  truncf (F := Ideal) (φ := .f32) .bf16
    (transpose S128x64 [1, 0] (concatenate S64x128 1 [⟨S64x64, Wl⟩, ⟨S64x64, Wr⟩] concatenates_S64x64_S64x64_S64x128_d1)
      transposes_S64x128_S128x64_1_0) bitsLt_bf16_f32

/-- The bias as a row. -/
def brow (b : S64.Idx → EReal) : S1x64.Idx → EReal := shapeCast S1x64 b shapeCasts_S64_S1x64

/-- The hidden features: the first layer, fused and clamped below at zero. -/
def hidK (x : S100000x64.Idx → EReal) (e : S2x1250000.Idx → BitVec 32) (Wl : S64x64.Idx → EReal) (b : S64.Idx → EReal)
    (Wr : S64x64.Idx → EReal) : S100000x64.Idx → EReal :=
  G0 (aggOf x e) x (invCol e) (wcat Wl Wr) (brow b)

/-- The program's result: the second layer, fused, of the hidden features. -/
def kval (x : S100000x64.Idx → EReal) (e : S2x1250000.Idx → BitVec 32) (W1l : S64x64.Idx → EReal) (b1 : S64.Idx → EReal)
    (W1r W2l : S64x64.Idx → EReal) (b2 : S64.Idx → EReal) (W2r : S64x64.Idx → EReal) : S100000x64.Idx → EReal :=
  G1 (aggOf (hidK x e W1l b1 W1r) e) (hidK x e W1l b1 W1r) (invCol e) (wcat W2l W2r) (brow b2)

/-! ## The buffers when the first launch is entered -/

section
variable (m : (ℓ : Loc nD τ sig) → Buf (Elt Ideal) ℓ) (ρ : Dev nD → PrngReg) (c : Dev nD)

theorem W1_v1 : (W1 m ρ c (Proc.devRef .tc main_v1) : S1250000.Idx → BitVec 32) = srcVec (m ((c.tc : Thread nD τ).loc main_arg1)) := by
  show StableHlo.after hostOps0 (W0 m ρ c) (Proc.devRef .tc main_v1) = _
  after_results
  rfl

theorem W1_v3 : (W1 m ρ c (Proc.devRef .tc main_v3) : S1250000.Idx → BitVec 32) = dstVec (m ((c.tc : Thread nD τ).loc main_arg1)) := by
  show StableHlo.after hostOps0 (W0 m ρ c) (Proc.devRef .tc main_v3) = _
  after_results
  rfl

set_option maxHeartbeats 8000000 in
theorem V1_v23 : (V1 m ρ c main_v23 : S100000x64.Idx → EReal)
    = aggOf (m ((c.tc : Thread nD τ).loc main_arg0)) (m ((c.tc : Thread nD τ).loc main_arg1)) := by
  show StableHlo.after hostOps0 (W0 m ρ c) (Proc.devRef .tc main_v23) = _
  after_results_simp
  rfl

theorem V1_arg0 : (V1 m ρ c main_arg0 : S100000x64.Idx → EReal) = m ((c.tc : Thread nD τ).loc main_arg0) := by
  show StableHlo.after hostOps0 (W0 m ρ c) (Proc.devRef .tc main_arg0) = _
  after_results

theorem V1_v13 : (V1 m ρ c main_v13 : S100000x1.Idx → EReal) = invCol (m ((c.tc : Thread nD τ).loc main_arg1)) := by
  show StableHlo.after hostOps0 (W0 m ρ c) (Proc.devRef .tc main_v13) = _
  after_results
  rfl

set_option maxHeartbeats 8000000 in
theorem V1_v27 : (V1 m ρ c main_v27 : S128x64.Idx → EReal)
    = wcat (m ((c.tc : Thread nD τ).loc main_arg2)) (m ((c.tc : Thread nD τ).loc main_arg4)) := by
  show StableHlo.after hostOps0 (W0 m ρ c) (Proc.devRef .tc main_v27) = _
  after_results_simp
  rfl

theorem V1_v24 : (V1 m ρ c main_v24 : S1x64.Idx → EReal) = brow (m ((c.tc : Thread nD τ).loc main_arg3)) := by
  show StableHlo.after hostOps0 (W0 m ρ c) (Proc.devRef .tc main_v24) = _
  after_results
  rfl

theorem W1_arg5 : (W1 m ρ c (Proc.devRef .tc main_arg5) : S64x64.Idx → EReal) = m ((c.tc : Thread nD τ).loc main_arg5) := by
  show StableHlo.after hostOps0 (W0 m ρ c) (Proc.devRef .tc main_arg5) = _
  after_results

theorem W1_arg6 : (W1 m ρ c (Proc.devRef .tc main_arg6) : S64.Idx → EReal) = m ((c.tc : Thread nD τ).loc main_arg6) := by
  show StableHlo.after hostOps0 (W0 m ρ c) (Proc.devRef .tc main_arg6) = _
  after_results

theorem W1_arg7 : (W1 m ρ c (Proc.devRef .tc main_arg7) : S64x64.Idx → EReal) = m ((c.tc : Thread nD τ).loc main_arg7) := by
  show StableHlo.after hostOps0 (W0 m ρ c) (Proc.devRef .tc main_arg7) = _
  after_results

/-! ## After the first launch -/

/-- The first launch leaves the hidden features in its result array. -/
theorem V2_v28 : (V2 m ρ c main_v28 : S100000x64.Idx → EReal)
    = hidK (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  refine (W2_arr m ρ c 5).trans ?_
  rw [final0 (V1 m ρ) c, V1_v23, V1_arg0, V1_v13, V1_v27, V1_v24]
  rfl

end

end Cert.KernelIdeal.Hand

end
-- ==== Proof.KValue.lean ====
/-
  The idealized kernel program's result as one function of its arguments: between the launches the host aggregates the
  first launch's result — the hidden features — exactly as it aggregated the node features, with the same source and
  destination indices, and lays out the second layer's weights and bias; the reciprocal column is the one computed
  before the first launch.  So the second launch leaves the fused second layer of the hidden features.
-/
import proofs.«148957_j6897717477582_2_alg».proof.Proof.KHost

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-! ## What the first launch leaves untouched (the reciprocal column it only reads) -/

theorem W2_v1 : (W2 m ρ c (Proc.devRef .tc main_v1) : S1250000.Idx → BitVec 32) = srcVec (m ((c.tc : Thread nD τ).loc main_arg1)) :=
  (W2_of_ne m ρ c main_v1 (by decide)).trans (W1_v1 m ρ c)

theorem W2_v3 : (W2 m ρ c (Proc.devRef .tc main_v3) : S1250000.Idx → BitVec 32) = dstVec (m ((c.tc : Thread nD τ).loc main_arg1)) :=
  (W2_of_ne m ρ c main_v3 (by decide)).trans (W1_v3 m ρ c)

theorem W2_arg5 : (W2 m ρ c (Proc.devRef .tc main_arg5) : S64x64.Idx → EReal) = m ((c.tc : Thread nD τ).loc main_arg5) :=
  (W2_of_ne m ρ c main_arg5 (by decide)).trans (W1_arg5 m ρ c)

theorem W2_arg6 : (W2 m ρ c (Proc.devRef .tc main_arg6) : S64.Idx → EReal) = m ((c.tc : Thread nD τ).loc main_arg6) :=
  (W2_of_ne m ρ c main_arg6 (by decide)).trans (W1_arg6 m ρ c)

theorem W2_arg7 : (W2 m ρ c (Proc.devRef .tc main_arg7) : S64x64.Idx → EReal) = m ((c.tc : Thread nD τ).loc main_arg7) :=
  (W2_of_ne m ρ c main_arg7 (by decide)).trans (W1_arg7 m ρ c)

/-! ## The buffers when the second launch is entered -/

theorem V3_v38 : (V3 m ρ c main_v38 : S100000x64.Idx → EReal)
    = aggOf (V2 m ρ c main_v28) (m ((c.tc : Thread nD τ).loc main_arg1)) := by
  show StableHlo.after hostOps1 (W2 m ρ c) (Proc.devRef .tc main_v38) = _
  after_results
  rw [W2_v3, W2_v1]
  rfl

theorem V3_v28 : (V3 m ρ c main_v28 : S100000x64.Idx → EReal) = V2 m ρ c main_v28 := by
  show StableHlo.after hostOps1 (W2 m ρ c) (Proc.devRef .tc main_v28) = _
  after_results

theorem V3_v13 : (V3 m ρ c main_v13 : S100000x1.Idx → EReal) = invCol (m ((c.tc : Thread nD τ).loc main_arg1)) := by
  show StableHlo.after hostOps1 (W2 m ρ c) (Proc.devRef .tc main_v13) = _
  after_results
  exact ((W2_arr m ρ c 2).trans (((dat0 (V1 m ρ) c).arrAt_in 2 rfl _).trans (A_eq0 (V1 m ρ) c 2))).trans (V1_v13 m ρ c)

theorem V3_v42 : (V3 m ρ c main_v42 : S128x64.Idx → EReal)
    = wcat (m ((c.tc : Thread nD τ).loc main_arg5)) (m ((c.tc : Thread nD τ).loc main_arg7)) := by
  show StableHlo.after hostOps1 (W2 m ρ c) (Proc.devRef .tc main_v42) = _
  after_results
  rw [W2_arg5, W2_arg7]
  rfl

theorem V3_v39 : (V3 m ρ c main_v39 : S1x64.Idx → EReal) = brow (m ((c.tc : Thread nD τ).loc main_arg6)) := by
  show StableHlo.after hostOps1 (W2 m ρ c) (Proc.devRef .tc main_v39) = _
  after_results
  rw [W2_arg6]
  rfl

/-! ## The result -/

/-- The result buffer at the last boundary is the program's function of the arguments. -/
theorem kernel_value : (W4 m ρ c (Proc.devRef .tc main_v43) : S100000x64.Idx → EReal)
    = kval (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) := by
  refine (W4_result m ρ c).trans ?_
  rw [final1 (V3 m ρ) c, V3_v38, V3_v28, V3_v13, V3_v42, V3_v39, V2_v28]
  rfl

end Cert.KernelIdeal.Hand

end
-- ==== Proof.KHostAt.lean ====
/-
  The host's layout values of the idealized kernel program read at an index: the clamped in-degree of node `r` is the
  larger of the 32-bit count read as a real and one; the reciprocal column holds at `(r, 0)` one divided by it; the
  stacked weights hold at `(k, j)` the neighbour weight `(j, k)` in their first 64 rows and the root weight `(j, k - 64)`
  in their last 64; the bias row holds the bias.  With these, one fused layer of the program is the plain arrangement
  of the layer wherever the clamped in-degree is the given nonzero real.
-/
import proofs.«148957_j6897717477582_2_alg».proof.Proof.KHost
import proofs.«148957_j6897717477582_2_alg».proof.Proof.Halves
import Idealize.ShloMosaic.Lib.ValueLayout

noncomputable section

namespace Cert.KernelIdeal.Hand

open Cert.KernelIdeal Cert.KernelIdeal.Gen
open Idealize.ShloMosaic Idealize.ShloMosaic.ValueIdx

/-- The word of the float one denotes the real one. -/
theorem ofBits_one : Ideal.ofBits .f32 0x3F800000#32 = 1 := by
  simp [Ideal.ofBits, Ideal.ieee]
  rw [← EReal.coe_mul]
  norm_num

/-- The clamped in-degree of node `r`: the larger of the integer count, read as a real, and one. -/
theorem clampK_apply (e : S2x1250000.Idx → BitVec 32) (r : Fin 100000) :
    clampK e (ix1 r) = max ((((cntI e (ix1 r)).toInt : ℝ)) : EReal) 1 := by
  unfold clampK
  rw [maximumf_apply]
  show max ((((cntI e (ix1 r)).toInt : ℝ)) : EReal) (Ideal.ofBits .f32 0x3F800000#32) = _
  rw [ofBits_one]

/-- The clamped in-degree is a nonzero real. -/
theorem clampK_real (e : S2x1250000.Idx → BitVec 32) (r : Fin 100000) :
    ∃ q : ℝ, q ≠ 0 ∧ clampK e (ix1 r) = (q : EReal) := by
  rw [clampK_apply]
  generalize (((cntI e (ix1 r)).toInt : ℝ)) = n
  rcases le_total n 1 with h | h
  · refine ⟨1, one_ne_zero, ?_⟩
    rw [max_eq_right (by exact_mod_cast h)]
    rfl
  · refine ⟨n, by linarith, ?_⟩
    rw [max_eq_left (by exact_mod_cast h)]

/-- The reciprocal column at `(r, 0)`: one divided by the clamped in-degree of node `r`. -/
theorem invCol_apply (e : S2x1250000.Idx → BitVec 32) (r : Fin 100000) :
    invCol e (ix2 r (0 : Fin 1)) = Ideal.div 1 (clampK e (ix1 r)) := by
  unfold invCol
  rw [broadcastInDim_apply _ bcast_S100000_S100000x1_0 _ (ix2 r (0 : Fin 1)) (ix1 r) (fun a => match a with
    | ⟨0, _⟩ => by show r.val = if (100000 : Nat) = 1 then 0 else r.val; rw [if_neg (by decide)])]
  show Ideal.div (Ideal.ofBits .f32 0x3F800000#32) (clampK e (ix1 r)) = _
  rw [ofBits_one]

/-- The stacked weights' first 64 rows are the neighbour weights transposed. -/
theorem wcat_lo (Wl Wr : S64x64.Idx → EReal) (k j : Fin 64) : wcat Wl Wr (ix2 (Cert.Dense.lo k) j) = Wl (ix2 j k) := by
  unfold wcat
  rw [truncf_apply, transpose_ix2_apply, Cert.Dense.concat_lo]

/-- The stacked weights' last 64 rows are the root weights transposed. -/
theorem wcat_hi (Wl Wr : S64x64.Idx → EReal) (k j : Fin 64) : wcat Wl Wr (ix2 (Cert.Dense.hi k) j) = Wr (ix2 j k) := by
  unfold wcat
  rw [truncf_apply, transpose_ix2_apply, Cert.Dense.concat_hi]

/-- The bias row holds the bias. -/
theorem brow_apply (b : S64.Idx → EReal) (j : Fin 64) : brow b (ix2 (0 : Fin 1) j) = b (ix1 j) := by
  unfold brow
  exact shapeCast_a_1a_apply b shapeCasts_S64_S1x64 0 j

/-- One fused layer over the host's layout values is the plain arrangement of the layer, for any clamped in-degrees
    `M` that agree with the program's own. -/
theorem fused_host_eq (A X : S100000x64.Idx → EReal) (e : S2x1250000.Idx → BitVec 32) (Wl Wr : S64x64.Idx → EReal) (b : S64.Idx → EReal)
    (M : S100000.Idx → EReal) (hM : ∀ r : Fin 100000, clampK e (ix1 r) = M (ix1 r)) (r : Fin 100000) (j : Fin 64) :
    Cert.Dense.fusedAt A X (invCol e) (wcat Wl Wr) (brow b) r j = Cert.Dense.sageAt A X M Wl Wr b r j := by
  obtain ⟨q, hq, hc⟩ := clampK_real e r
  exact Cert.Dense.fusedAt_eq_sageAt A X (invCol e) (wcat Wl Wr) (brow b) M Wl Wr b r j q hq ((hM r).symm.trans hc)
    ((invCol_apply e r).trans (by rw [hM r])) (fun k => wcat_lo Wl Wr k j) (fun k => wcat_hi Wl Wr k j) (brow_apply b j)

end Cert.KernelIdeal.Hand

end
-- ==== Proof.RefRead.lean ====
/-
  The reference program read at an index, at the ideal values: each of its two layers, at node `r` and output feature
  `j`, is the plain arrangement of one layer (`Cert.Dense.sageAt`) — the aggregated features divided by the clamped
  in-degree and contracted with the transposed neighbour weights, plus the bias, plus the features contracted with the
  transposed root weights —, the first layer of the node features and followed by the clamp below at zero, the second
  layer of the hidden features.
-/
import proofs.«148957_j6897717477582_2_alg».proof.Proof.Gen.ReferenceIdeal.Read
import proofs.«148957_j6897717477582_2_alg».proof.Proof.Dense

noncomputable section

open scoped BigOperators

namespace Cert.ReferenceIdeal.Hand

open Cert.ReferenceIdeal Cert.ReferenceIdeal.Gen Cert.ReferenceIdeal.Read
open Idealize.ShloMosaic Idealize.ShloMosaic.ValueIdx

/-- layer1_apply: the reference's layer at node `r`, output feature `j`, is the plain arrangement. -/
theorem layer1_apply (x0 : (⟨S100000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (r : Fin 100000) (j : Fin 64) :
    val_main_v30 (F := Ideal) x0 x1 x2 x3 x4 (ix2 r j)
      = Cert.Dense.sageAt (val_main_v13 (F := Ideal) x0 x1) (x0) (val_main_v19 (F := Ideal) x1) x2 x4 x3 r j := by
  rw [val_main_v30_apply, val_main_v27_apply, val_main_v24_apply, val_main_v29_apply, val_main_v26_apply, val_main_v25_apply]
  unfold Cert.Dense.sageAt
  simp only [Ideal.addf_def]
  refine congrArg₂ (· + ·) (congrArg₂ (· + ·) (Finset.sum_congr rfl fun k _ => ?_) ?_) (Finset.sum_congr rfl fun k _ => ?_)
  · have e1 : lidx_main_v24 (ix2 r j) k = ix2 r k := funext fun a => Fin.ext (by match a with | ⟨0, _⟩ => rfl | ⟨1, _⟩ => rfl)
    have e2 : idx_main_v20 (idx_main_v21 (ix2 r k)) = ix1 r := funext fun a => Fin.ext (by match a with | ⟨0, _⟩ => rfl)
    have e3 : idx_main_v23 (ridx_main_v24 (ix2 r j) k) = ix2 j k := funext fun a => Fin.ext (by match a with | ⟨0, _⟩ => rfl | ⟨1, _⟩ => rfl)
    rw [e1, val_main_v22_apply, val_main_v21_apply, val_main_v20_apply, val_main_v23_apply, e2, e3, Ideal.hostDivf_def]
  · exact congrArg x3 (funext fun a => Fin.ext (by match a with | ⟨0, _⟩ => rfl))
  · have e1 : lidx_main_v29 (ix2 r j) k = ix2 r k := funext fun a => Fin.ext (by match a with | ⟨0, _⟩ => rfl | ⟨1, _⟩ => rfl)
    have e3 : idx_main_v28 (ridx_main_v29 (ix2 r j) k) = ix2 j k := funext fun a => Fin.ext (by match a with | ⟨0, _⟩ => rfl | ⟨1, _⟩ => rfl)
    rw [e1, val_main_v28_apply, e3]

/-- The hidden features: the first layer clamped below at zero. -/
theorem hid_apply (x0 : (⟨S100000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (i : S100000x64.Idx) :
    val_main_v31 (F := Ideal) x0 x1 x2 x3 x4 i = max (val_main_v30 (F := Ideal) x0 x1 x2 x3 x4 i) (Ideal.ofBits .f32 0x00000000#32) := by
  rw [val_main_v31_apply, val_main_call0_v0_apply, val_main_call0_cst_apply]
  rfl

/-- layer2_apply: the reference's layer at node `r`, output feature `j`, is the plain arrangement. -/
theorem layer2_apply (x0 : (⟨S100000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (r : Fin 100000) (j : Fin 64) :
    val_main_v58 (F := Ideal) x0 x1 x2 x3 x4 x5 x6 x7 (ix2 r j)
      = Cert.Dense.sageAt (val_main_v41 (F := Ideal) x0 x1 x2 x3 x4) (val_main_v31 (F := Ideal) x0 x1 x2 x3 x4) (val_main_v47 (F := Ideal) x1) x5 x7 x6 r j := by
  rw [val_main_v58_apply, val_main_v55_apply, val_main_v52_apply, val_main_v57_apply, val_main_v54_apply, val_main_v53_apply]
  unfold Cert.Dense.sageAt
  simp only [Ideal.addf_def]
  refine congrArg₂ (· + ·) (congrArg₂ (· + ·) (Finset.sum_congr rfl fun k _ => ?_) ?_) (Finset.sum_congr rfl fun k _ => ?_)
  · have e1 : lidx_main_v52 (ix2 r j) k = ix2 r k := funext fun a => Fin.ext (by match a with | ⟨0, _⟩ => rfl | ⟨1, _⟩ => rfl)
    have e2 : idx_main_v48 (idx_main_v49 (ix2 r k)) = ix1 r := funext fun a => Fin.ext (by match a with | ⟨0, _⟩ => rfl)
    have e3 : idx_main_v51 (ridx_main_v52 (ix2 r j) k) = ix2 j k := funext fun a => Fin.ext (by match a with | ⟨0, _⟩ => rfl | ⟨1, _⟩ => rfl)
    rw [e1, val_main_v50_apply, val_main_v49_apply, val_main_v48_apply, val_main_v51_apply, e2, e3, Ideal.hostDivf_def]
  · exact congrArg x6 (funext fun a => Fin.ext (by match a with | ⟨0, _⟩ => rfl))
  · have e1 : lidx_main_v57 (ix2 r j) k = ix2 r k := funext fun a => Fin.ext (by match a with | ⟨0, _⟩ => rfl | ⟨1, _⟩ => rfl)
    have e3 : idx_main_v56 (ridx_main_v57 (ix2 r j) k) = ix2 j k := funext fun a => Fin.ext (by match a with | ⟨0, _⟩ => rfl | ⟨1, _⟩ => rfl)
    rw [e1, val_main_v56_apply, e3]

end Cert.ReferenceIdeal.Hand

end
-- ==== Proof.LibCount.lean ====
/-
  Counting the updates that land on each element of a scatter.

  A scatter whose body adds, run over an operand of zeros with every update equal to one, leaves at
  each element the number of update indices whose result index is that element.  In 32-bit integers
  the scatter is a left fold over the update indices in row-major order; as long as the number of
  update elements is below `2 ^ 31` the count read back as a signed integer is the count itself.  In
  the extended reals the accumulating scatter is the operand plus a finite sum of ones, which is the
  same count.  Hence the integer result, converted to a real, is the extended-real result.
-/
import Idealize.ShloMosaic.PureOps.Ideal
import Idealize.ShloMosaic.PureOps.ShapeOps
import Idealize.ShloMosaic.PureOps.Dims

noncomputable section

open scoped BigOperators

namespace Cert.LibCount

open Idealize.ShloMosaic

/-- A left fold whose step `n` adds `upd' n = 1` to the element `g n` (when there is one) and leaves
    every other element alone: element `i` ends as its starting value plus the number of steps `n` of
    the list with `g n = some i`. -/
theorem foldl_add_ones {K : ℕ} {ι : Type} [DecidableEq ι] (g : Fin K → Option ι)
    (upd' : Fin K → BitVec 32) (h1 : ∀ n, upd' n = 1#32)
    (step : (ι → BitVec 32) → Fin K → ι → BitVec 32)
    (hhit : ∀ r n k, g n = some k → step r n k = r k + upd' n)
    (hmiss : ∀ r n k i', g n = some k → i' ≠ k → step r n i' = r i')
    (hnone : ∀ r n, g n = none → step r n = r) (i : ι) :
    ∀ (l : List (Fin K)) (r : ι → BitVec 32),
      (l.foldl step r) i = r i + BitVec.ofNat 32 (l.countP (fun n => decide (g n = some i))) := by
  intro l
  induction l with
  | nil => intro r; simp
  | cons n l ih =>
    intro r
    rw [List.foldl_cons, ih, List.countP_cons]
    cases hg : g n with
    | none => rw [hnone r n hg]; simp
    | some k =>
      by_cases hk : i = k
      · subst hk
        rw [hhit r n i hg, h1]
        simp only [decide_true, if_true]
        rw [BitVec.add_assoc]
        congr 1
        rw [Nat.add_comm]
        simp [BitVec.ofNat_add]
      · have hk' : ¬ (some k = some i) := fun e => hk (Option.some.inj e).symm
        rw [hmiss r n k i hg hk]
        simp [hk']

/-- Counting along `List.finRange K` is the cardinality of the filtered universe of `Fin K`. -/
theorem countP_finRange (K : ℕ) (p : Fin K → Prop) [DecidablePred p] :
    (List.finRange K).countP (fun n => decide (p n)) = (Finset.univ.filter p).card := by
  rw [Fin.univ_def]
  simp [Finset.filter, Finset.card, Multiset.countP_eq_card_filter, List.countP_eq_length_filter]

/-- Re-indexing the update indices by their row-major position keeps the count. -/
theorem card_filter_rowMajor {u : Shape} {ι : Type} [DecidableEq ι] (g : u.Idx → Option ι) (i : ι) :
    (Finset.univ.filter (fun n : Fin u.numel => g (u.rowMajor.symm n) = some i)).card
      = (Finset.univ.filter (fun j : u.Idx => g j = some i)).card := by
  refine Finset.card_equiv u.rowMajor.symm (fun n => ?_)
  simp

/-- A count below `2 ^ 31`, added to zero in 32 bits and read back signed, is itself. -/
theorem toInt_zero_add_ofNat {c : ℕ} (h : c < 2 ^ 31) : (0#32 + BitVec.ofNat 32 c).toInt = (c : ℤ) := by
  rw [BitVec.zero_add, BitVec.toInt_ofNat']
  apply Int.bmod_eq_of_le <;> omega

/-- The integer scatter-add of ones into zeros: each element holds, as a signed integer, the number
    of update indices whose result index it is, provided the update has fewer than `2 ^ 31` elements. -/
theorem toInt_scatter_ones {s si u : Shape} (d : ScatterDims s si u) {w : ℕ} (idx : IVec si w)
    (x : s.Idx → BitVec 32) (upd : u.Idx → BitVec 32) (hx : ∀ i, x i = 0#32) (hupd : ∀ j, upd j = 1#32)
    (hlt : u.numel < 2 ^ 31) (i : s.Idx) :
    (Host.scatter d IntOp.addi x idx upd i).toInt
      = ((Finset.univ.filter (fun j : u.Idx => d.resultIdx? j idx = some i)).card : ℤ) := by
  have hfold : Host.scatter d IntOp.addi x idx upd i
      = x i + BitVec.ofNat 32 ((List.finRange u.numel).countP
          (fun n => decide (d.resultIdx? (u.rowMajor.symm n) idx = some i))) :=
by
    unfold Host.scatter
    refine foldl_add_ones (fun n => d.resultIdx? (u.rowMajor.symm n) idx)
      (fun n => upd (u.rowMajor.symm n)) (fun n => hupd _) _ ?_ ?_ ?_ i (List.finRange u.numel) x
    · intro r n k h
      have h' : d.resultIdx? (u.rowMajor.symm n) idx = some k := h
      simp [h', IntOp.addi]
    · intro r n k i' h hne
      have h' : d.resultIdx? (u.rowMajor.symm n) idx = some k := h
      simp [h', hne]
    · intro r n h
      have h' : d.resultIdx? (u.rowMajor.symm n) idx = none := h
      simp [h']
  have hcount : (List.finRange u.numel).countP
        (fun n => decide (d.resultIdx? (u.rowMajor.symm n) idx = some i))
      = (Finset.univ.filter (fun j : u.Idx => d.resultIdx? j idx = some i)).card := by
    rw [countP_finRange u.numel (fun n => d.resultIdx? (u.rowMajor.symm n) idx = some i)]
    exact card_filter_rowMajor (fun j => d.resultIdx? j idx) i
  have hle : (List.finRange u.numel).countP
        (fun n => decide (d.resultIdx? (u.rowMajor.symm n) idx = some i)) ≤ u.numel := by
    have := List.countP_le_length (p := fun n => decide (d.resultIdx? (u.rowMajor.symm n) idx = some i))
      (l := List.finRange u.numel)
    simpa using this
  rw [hfold, hx i, toInt_zero_add_ofNat (lt_of_le_of_lt hle hlt), hcount]

/-- `n` copies of one, summed in the extended reals, is the real number `n`. -/
theorem nsmul_one_ereal (n : ℕ) : n • (1 : EReal) = ((n : ℝ) : EReal) := by
  induction n with
  | zero => simp
  | succ n ih => rw [succ_nsmul, ih, Nat.cast_succ, EReal.coe_add, EReal.coe_one]

/-- The extended-real scatter-add of ones into zeros: each element holds the number of update
    indices whose result index it is. -/
theorem hostScatterAdd_ones {s si u : Shape} (d : ScatterDims s si u) {w : ℕ} (idx : IVec si w)
    (xf : s.Idx → EReal) (updf : u.Idx → EReal) (hxf : ∀ i, xf i = 0) (hupdf : ∀ j, updf j = 1)
    (i : s.Idx) :
    Ideal.hostScatterAdd d xf idx updf i
      = (((Finset.univ.filter (fun j : u.Idx => d.resultIdx? j idx = some i)).card : ℝ) : EReal) := by
  unfold Ideal.hostScatterAdd
  rw [hxf i, zero_add, Finset.sum_congr rfl (fun j _ => hupdf j), Finset.sum_const, nsmul_one_ereal]

/-- The integer count converted to a real is the extended-real count: the 32-bit scatter-add of ones
    into zeros, read signed and cast, equals the exact accumulating scatter of ones into zeros. -/
theorem sitofp_scatter_ones_eq {s si u : Shape} (d : ScatterDims s si u) {w : ℕ} (idx : IVec si w)
    (x : s.Idx → BitVec 32) (upd : u.Idx → BitVec 32) (hx : ∀ i, x i = 0#32) (hupd : ∀ j, upd j = 1#32)
    (hlt : u.numel < 2 ^ 31)
    (xf : s.Idx → EReal) (updf : u.Idx → EReal) (hxf : ∀ i, xf i = 0) (hupdf : ∀ j, updf j = 1)
    (i : s.Idx) :
    (((Host.scatter d IntOp.addi x idx upd i).toInt : ℝ) : EReal)
      = Ideal.hostScatterAdd d xf idx updf i := by
  rw [toInt_scatter_ones d idx x upd hx hupd hlt i, hostScatterAdd_ones d idx xf updf hxf hupdf i,
    Int.cast_natCast]

/-- The same, with the accumulating scatter spelt as the host operation at the ideal values. -/
theorem sitofp_scatter_ones_eq_host {s si u : Shape} (d : ScatterDims s si u) {w : ℕ} (idx : IVec si w)
    (x : s.Idx → BitVec 32) (upd : u.Idx → BitVec 32) (hx : ∀ i, x i = 0#32) (hupd : ∀ j, upd j = 1#32)
    (hlt : u.numel < 2 ^ 31)
    (xf : s.Idx → EReal) (updf : u.Idx → EReal) (hxf : ∀ i, xf i = 0) (hupdf : ∀ j, updf j = 1)
    (i : s.Idx) :
    (((Host.scatter d IntOp.addi x idx upd i).toInt : ℝ) : EReal)
      = Host.scatterAdd (F := Ideal) (φ := .f32) d xf idx updf i :=
  sitofp_scatter_ones_eq d idx x upd hx hupd hlt xf updf hxf hupdf i

end Cert.LibCount
-- ==== Proof.Bridge.lean ====
/-
  The two idealized programs compute one function of the arguments.

  Both aggregate with the same gathers and scatters of the same indices, so the aggregations are one term.  The kernel
  program counts the in-degrees in 32-bit integers and converts, the reference adds up ones in the extended reals: with
  1,250,000 edges the integer count cannot wrap, so both are the number of edges arriving at the node, a real number,
  and its clamp below at one is a nonzero real.  There the kernel's fused layer — scaling by the reciprocal, one
  contraction over the features laid side by side, then the bias — is the reference's plain layer — dividing, two
  contractions with the bias added between them.  The first layer's results (clamped below at zero on both sides) are
  therefore one array, and the second layer, applied to one array and its one aggregation, gives one result.
-/
import proofs.«148957_j6897717477582_2_alg».proof.Proof.KValue
import proofs.«148957_j6897717477582_2_alg».proof.Proof.KHostAt
import proofs.«148957_j6897717477582_2_alg».proof.Proof.RefRead
import proofs.«148957_j6897717477582_2_alg».proof.Proof.LibCount

set_option maxRecDepth 16384

noncomputable section

namespace Cert.Bridge

open Idealize.ShloMosaic Idealize.ShloMosaic.ValueIdx
open Cert.KernelIdeal (S100000x64 S2x1250000 S64x64 S64 S100000 S1250000)
open Cert.KernelIdeal.Hand
open Cert.ReferenceIdeal.Read Cert.ReferenceIdeal.Hand

/-- The first aggregation is one term in the two programs. -/
theorem agg1_eq (x : S100000x64.Idx → EReal) (e : S2x1250000.Idx → BitVec 32) :
    aggOf x e = val_main_v13 (F := Ideal) x e := rfl

/-- The second aggregation is the same aggregation, of the hidden features. -/
theorem agg2_eq (x0 : S100000x64.Idx → EReal) (x1 : S2x1250000.Idx → BitVec 32) (x2 : S64x64.Idx → EReal) (x3 : S64.Idx → EReal)
    (x4 : S64x64.Idx → EReal) :
    aggOf (val_main_v31 (F := Ideal) x0 x1 x2 x3 x4) x1 = val_main_v41 (F := Ideal) x0 x1 x2 x3 x4 := rfl

/-- The integer in-degree, converted, is the extended-real in-degree. -/
theorem count_eq (e : S2x1250000.Idx → BitVec 32) (r : Fin 100000) :
    ((((cntI e (ix1 r)).toInt : ℝ)) : EReal) = val_main_v17 (F := Ideal) e (ix1 r) := by
  refine (Cert.LibCount.sitofp_scatter_ones_eq_host Cert.KernelIdeal.scatter_S100000_S1250000x1_S1250000_n_0_0_1 (dstCol e) _ _
    (fun _ => rfl) (fun _ => rfl) (by decide) (val_main_v15 (F := Ideal)) (val_main_v14 (F := Ideal))
    (fun i => ?_) (fun j => ?_) (ix1 r)).trans ?_
  · show Ideal.ofBits .f32 0x00000000#32 = 0
    exact Ideal.ofBits_zero_f32
  · show Ideal.ofBits .f32 0x3F800000#32 = 1
    exact ofBits_one
  · rfl

/-- The clamped in-degrees agree, at the first layer; -/
theorem clamp1_eq (e : S2x1250000.Idx → BitVec 32) (r : Fin 100000) : clampK e (ix1 r) = val_main_v19 (F := Ideal) e (ix1 r) := by
  rw [clampK_apply, count_eq, val_main_v19_apply]
  show _ = max (val_main_v17 (F := Ideal) e (ix1 r)) (Ideal.ofBits .f32 0x3F800000#32)
  rw [ofBits_one]

/-- and at the second (the reference counts again: the same count). -/
theorem clamp2_eq (e : S2x1250000.Idx → BitVec 32) (r : Fin 100000) : clampK e (ix1 r) = val_main_v47 (F := Ideal) e (ix1 r) :=
  (clamp1_eq e r).trans rfl

/-- The hidden features are one array in the two programs. -/
theorem hid_eq (x0 : S100000x64.Idx → EReal) (x1 : S2x1250000.Idx → BitVec 32) (x2 : S64x64.Idx → EReal) (x3 : S64.Idx → EReal)
    (x4 : S64x64.Idx → EReal) : hidK x0 x1 x2 x3 x4 = val_main_v31 (F := Ideal) x0 x1 x2 x3 x4 := by
  funext i
  obtain ⟨r, j, rfl⟩ : ∃ (r : Fin 100000) (j : Fin 64), i = ix2 r j := ⟨i 0, i 1, eq_ix2 i⟩
  rw [hid_apply, layer1_apply]
  unfold hidK G0
  rw [Cert.Dense.onRows_ix2, fused_host_eq _ _ _ _ _ _ (val_main_v19 (F := Ideal) x1) (clamp1_eq x1), agg1_eq]

/-- THE BRIDGE: the kernel program's result is the reference's. -/
theorem result_eq (x0 : S100000x64.Idx → EReal) (x1 : S2x1250000.Idx → BitVec 32) (x2 : S64x64.Idx → EReal) (x3 : S64.Idx → EReal)
    (x4 x5 : S64x64.Idx → EReal) (x6 : S64.Idx → EReal) (x7 : S64x64.Idx → EReal) :
    kval x0 x1 x2 x3 x4 x5 x6 x7 = val_main_v58 (F := Ideal) x0 x1 x2 x3 x4 x5 x6 x7 := by
  funext i
  obtain ⟨r, j, rfl⟩ : ∃ (r : Fin 100000) (j : Fin 64), i = ix2 r j := ⟨i 0, i 1, eq_ix2 i⟩
  rw [layer2_apply]
  unfold kval G1
  rw [Cert.Dense.onRows_ix2, hid_eq, fused_host_eq _ _ _ _ _ _ (val_main_v47 (F := Ideal) x1) (clamp2_eq x1), agg2_eq]

end Cert.Bridge

end
-- ==== Proof.lean ====
/-
  The certificate of a two-layer mean-aggregation graph network: the Pallas program against its jnp reference.

  Both programs aggregate, for every node, the features of the nodes with an edge into it (a gather at the edges'
  sources, a scatter-add at their destinations), and apply, twice, one layer: the mean of the aggregated features (the
  sum divided by the in-degree clamped below at one) contracted with the neighbour weights, plus a bias, plus the node's
  own features contracted with the root weights; between the layers the result is clamped below at zero.  The Pallas
  program counts the in-degrees in 32-bit integers, multiplies by the reciprocal of the clamped count, and computes each
  layer on blocks of 5000 nodes as ONE contraction of the scaled aggregate and the node features side by side with the
  two weight matrices stacked; the reference counts by adding ones, divides, and contracts twice.

  At the ideal values these are one function (Proof/Bridge.lean): the count of at most 1,250,000 edges does not wrap in
  32 bits and is a real number, so the clamped count is a nonzero real, dividing by it is multiplying by its reciprocal
  at every extended real, the contraction over 128 entries splits into the two over 64, and the sums are regrouped by
  commutativity and associativity alone — the finiteness of the inputs is never used.  The frames of the two kernel
  programs are the generated ones; the reference's is its generated run.  The idealization rewrote nothing, so
  `preserves` is trivial.
-/
import proofs.«148957_j6897717477582_2_alg».proof.Defs
import proofs.«148957_j6897717477582_2_alg».proof.Proof.Gen.Kernel
import proofs.«148957_j6897717477582_2_alg».proof.Proof.Gen.Kernel.Skeleton
import proofs.«148957_j6897717477582_2_alg».proof.Proof.Gen.Kernel.Launch
import proofs.«148957_j6897717477582_2_alg».proof.Proof.Gen.Kernel.Points
import proofs.«148957_j6897717477582_2_alg».proof.Proof.Gen.Kernel.Frame
import proofs.«148957_j6897717477582_2_alg».proof.Proof.Gen.KernelIdeal
import proofs.«148957_j6897717477582_2_alg».proof.Proof.Gen.KernelIdeal.Skeleton
import proofs.«148957_j6897717477582_2_alg».proof.Proof.Gen.KernelIdeal.Launch
import proofs.«148957_j6897717477582_2_alg».proof.Proof.Gen.KernelIdeal.Points
import proofs.«148957_j6897717477582_2_alg».proof.Proof.Gen.KernelIdeal.Frame
import proofs.«148957_j6897717477582_2_alg».proof.Proof.Gen.ReferenceIdeal
import proofs.«148957_j6897717477582_2_alg».proof.Proof.Gen.Pre_finite_inputs
import proofs.«148957_j6897717477582_2_alg».proof.Proof.Gen.ReferenceIdeal.Read
import proofs.«148957_j6897717477582_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs, its arguments unchanged: the generated frame. -/
theorem frame_k : Cert.frame_Kernel := fun m ρ _ => Cert.Kernel.Gen.frame m ρ

/-- The idealized kernel program runs, its arguments unchanged: the generated frame. -/
theorem frame_ki : Cert.frame_KernelIdeal := fun m ρ _ => Cert.KernelIdeal.Gen.frame m ρ

/-- The idealized reference runs, its arguments unchanged: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs run and end with one result: the kernel program's
    is its function of the arguments (the run with the result named, and the launches and host stretches read), the
    reference's its generated term, and the two are one function (the bridge). -/
theorem algebraic : Cert.algebraic_KernelIdeal_ReferenceIdeal := by
  intro m ρ m' ρ' _ hagree
  refine ⟨fun c => Cert.KernelIdeal.Hand.kval
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Hand.kernel_value m ρ c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v58_eq, h0, h1, h2, h3, h4, h5, h6, h7]
    exact (Cert.Bridge.result_eq _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
